-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x16x2048x64 : Shape := ⟨4, ![2, 16, 2048, 64]⟩
abbrev S2x2048 : Shape := ⟨2, ![2, 2048]⟩
abbrev S_ : Shape := ⟨0, ![]⟩

class Facts : Prop where
  bcast_S_S2x16x2048x64 : S_.BroadcastsInDim S2x16x2048x64 (![] : Fin 0 → Fin S2x16x2048x64.rank)
  reducesTo_S2x16x2048x64_S_d0_1_2_3 : S2x16x2048x64.ReducesTo [0, 1, 2, 3] S_
  h_S_ : 0 < S_.numel
  bcast_S_S2x2048 : S_.BroadcastsInDim S2x2048 (![] : Fin 0 → Fin S2x2048.rank)
  reducesTo_S2x2048_S_d0_1 : S2x2048.ReducesTo [0, 1] S_

variable [Facts]

def fn_part1 {F : FTy → Type} [FloatOps F] (main_v13 : IVec S_ 1) (main_v16 : IVec S2x2048 1) : IVec S_ 1 :=
  let main_c_5 : IVec S_ 1 := constantI S_ 1 1#1
  let main_v17 : IVec S_ 1 := (fun x v => Host.reduce IntOp.andi x v reducesTo_S2x2048_S_d0_1 h_S_) main_v16 main_c_5
  let main_v18 : IVec S_ 1 := andi main_v13 main_v17
  main_v18

def fn {F : FTy → Type} [FloatOps F] (main_arg0 : FVec F S2x16x2048x64 .f32) (main_arg1 : FVec F S2x16x2048x64 .f32) (main_arg2 : FVec F S2x16x2048x64 .f32) (main_arg3 : FVec F S2x2048 .f32) : IVec S_ 1 :=
  let main_v0 : FVec F S2x16x2048x64 .f32 := Host.absf main_arg0
  let main_cst : FVec F S_ .f32 := constant S_ .f32 0x7F800000#32
  let main_v1 : FVec F S2x16x2048x64 .f32 := broadcastInDim S2x16x2048x64 ![] bcast_S_S2x16x2048x64 main_cst
  let main_v2 : IVec S2x16x2048x64 1 := cmpf .olt main_v0 main_v1
  let main_c : IVec S_ 1 := constantI S_ 1 1#1
  let main_v3 : IVec S_ 1 := (fun x v => Host.reduce IntOp.andi x v reducesTo_S2x16x2048x64_S_d0_1_2_3 h_S_) main_v2 main_c
  let main_v4 : FVec F S2x16x2048x64 .f32 := Host.absf main_arg1
  let main_cst_0 : FVec F S_ .f32 := constant S_ .f32 0x7F800000#32
  let main_v5 : FVec F S2x16x2048x64 .f32 := broadcastInDim S2x16x2048x64 ![] bcast_S_S2x16x2048x64 main_cst_0
  let main_v6 : IVec S2x16x2048x64 1 := cmpf .olt main_v4 main_v5
  let main_c_1 : IVec S_ 1 := constantI S_ 1 1#1
  let main_v7 : IVec S_ 1 := (fun x v => Host.reduce IntOp.andi x v reducesTo_S2x16x2048x64_S_d0_1_2_3 h_S_) main_v6 main_c_1
  let main_v8 : IVec S_ 1 := andi main_v3 main_v7
  let main_v9 : FVec F S2x16x2048x64 .f32 := Host.absf main_arg2
  let main_cst_2 : FVec F S_ .f32 := constant S_ .f32 0x7F800000#32
  let main_v10 : FVec F S2x16x2048x64 .f32 := broadcastInDim S2x16x2048x64 ![] bcast_S_S2x16x2048x64 main_cst_2
  let main_v11 : IVec S2x16x2048x64 1 := cmpf .olt main_v9 main_v10
  let main_c_3 : IVec S_ 1 := constantI S_ 1 1#1
  let main_v12 : IVec S_ 1 := (fun x v => Host.reduce IntOp.andi x v reducesTo_S2x16x2048x64_S_d0_1_2_3 h_S_) main_v11 main_c_3
  let main_v13 : IVec S_ 1 := andi main_v8 main_v12
  let main_v14 : FVec F S2x2048 .f32 := Host.absf main_arg3
  let main_cst_4 : FVec F S_ .f32 := constant S_ .f32 0x7F800000#32
  let main_v15 : FVec F S2x2048 .f32 := broadcastInDim S2x2048 ![] bcast_S_S2x2048 main_cst_4
  let main_v16 : IVec S2x2048 1 := cmpf .olt main_v14 main_v15
  fn_part1 (F := F) main_v13 main_v16
-- ==== Kernel.lean ====
abbrev S2x16x2048x64 : Shape := ⟨4, ![2, 16, 2048, 64]⟩
abbrev S2x2048 : Shape := ⟨2, ![2, 2048]⟩
abbrev S_ : Shape := ⟨0, ![]⟩
abbrev S1x1x1024x64 : Shape := ⟨4, ![1, 1, 1024, 64]⟩
abbrev S1x1x2048x64 : Shape := ⟨4, ![1, 1, 2048, 64]⟩
abbrev S1024x64 : Shape := ⟨2, ![1024, 64]⟩
abbrev S2048x64 : Shape := ⟨2, ![2048, 64]⟩
abbrev S1024x2048 : Shape := ⟨2, ![1024, 2048]⟩
abbrev S1x2048 : Shape := ⟨2, ![1, 2048]⟩
abbrev S2048 : Shape := ⟨1, ![2048]⟩
abbrev S1024 : Shape := ⟨1, ![1024]⟩
abbrev S1024x1 : Shape := ⟨2, ![1024, 1]⟩

abbrev nBuf : Space → Nat
  | .hbm => 12
  | .vmem => 9
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x2048, .f32⟩
  | .hbm, ⟨4, _⟩ => ⟨S_, .f32⟩
  | .hbm, ⟨5, _⟩ => ⟨S2x2048, .f32⟩
  | .hbm, ⟨6, _⟩ => ⟨S2x2048, .f32⟩
  | .hbm, ⟨7, _⟩ => ⟨S2x2048, .f32⟩
  | .hbm, ⟨8, _⟩ => ⟨S_, .f32⟩
  | .hbm, ⟨9, _⟩ => ⟨S2x2048, .f32⟩
  | .hbm, ⟨10, _⟩ => ⟨S2x2048, .f32⟩
  | .hbm, ⟨11, _⟩ => ⟨S2x16x2048x64, .f32⟩
  | .local _ .vmem, ⟨0, _⟩ => ⟨S1x1x1024x64, .f32⟩
  | .local _ .vmem, ⟨1, _⟩ => ⟨S1x1x1024x64, .f32⟩
  | .local _ .vmem, ⟨2, _⟩ => ⟨S1x1x2048x64, .f32⟩
  | .local _ .vmem, ⟨3, _⟩ => ⟨S1x1x2048x64, .f32⟩
  | .local _ .vmem, ⟨4, _⟩ => ⟨S1x1x2048x64, .f32⟩
  | .local _ .vmem, ⟨5, _⟩ => ⟨S1x1x2048x64, .f32⟩
  | .local _ .vmem, ⟨6, _⟩ => ⟨S2x2048, .f32⟩
  | .local _ .vmem, ⟨7, _⟩ => ⟨S1x1x1024x64, .f32⟩
  | .local _ .vmem, ⟨8, _⟩ => ⟨S1x1x1024x64, .f32⟩
  | _, _ => ⟨S2x16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨3, ![2, 16, 2], ![false, false, false]⟩

def k0_off1 (i : grid0.Coords) : Fin 2 → Nat :=
  let arg0 : BitVec 32 := BitVec.ofNat 32 (i 0).val
  let v12 : Index := Scalar.indexCast arg0
  let c0_12 : Index := 0#32
  ![v12.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S2x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S1x1x1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

class Facts₀ : Prop where
  bcast_S_S2x2048 : S_.BroadcastsInDim S2x2048 (![] : Fin 0 → Fin S2x2048.rank)
  inb_S1x1x1024x64_S1x1x1024x64_0_0_0_0 : ∀ a, (![0, 0, 0, 0] : Fin 4 → Nat) a + S1x1x1024x64.size a ≤ S1x1x1024x64.size a
  h_S1x1x1024x64 : 0 < S1x1x1024x64.numel
  shapeCasts_S1x1x1024x64_S1024x64 : S1x1x1024x64.ShapeCasts S1024x64
  bitsLt_bf16_f32 : FTy.bits .bf16 < FTy.bits .f32
  inb_S1x1x2048x64_S1x1x2048x64_0_0_0_0 : ∀ a, (![0, 0, 0, 0] : Fin 4 → Nat) a + S1x1x2048x64.size a ≤ S1x1x2048x64.size a
  h_S1x1x2048x64 : 0 < S1x1x2048x64.numel
  shapeCasts_S1x1x2048x64_S2048x64 : S1x1x2048x64.ShapeCasts S2048x64
  h_S1x2048 : 0 < S1x2048.numel
  shapeCasts_S1x2048_S2048 : S1x2048.ShapeCasts S2048
  shapeCasts_S2048_S1x2048 : S2048.ShapeCasts S1x2048
  broadcasts_S1x2048_S1024x2048 : S1x2048.Broadcasts S1024x2048
  reduces_S1024x2048_S1024 : S1024x2048.Reduces [1] S1024
  shapeCasts_S1024_S1024x1 : S1024.ShapeCasts S1024x1
  broadcasts_S1024x1_S1024x2048 : S1024x1.Broadcasts S1024x2048
  broadcasts_S1024x1_S1024x64 : S1024x1.Broadcasts S1024x64
  shapeCasts_S1024x64_S1x1x1024x64 : S1024x64.ShapeCasts S1x1x1024x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  k0_off1_inb : ∀ i : grid0.Coords, ∀ a, (k0_off1 i) a + S1x2048.size a ≤ S2x2048.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x1024x64.size a ≤ S2x16x2048x64.size a
  hwx0_0 : ∀ i : grid0.Coords, EltTy.bits .f32 = 32 ∨ (Rect.block (s := S2x16x2048x64) S1x1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x64.size a ≤ S2x16x2048x64.size a
  hwx0_1 : ∀ i : grid0.Coords, EltTy.bits .f32 = 32 ∨ (Rect.block (s := S2x16x2048x64) S1x1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x64.size a ≤ S2x16x2048x64.size a
  hwx0_2 : ∀ i : grid0.Coords, EltTy.bits .f32 = 32 ∨ (Rect.block (s := S2x16x2048x64) S1x1x2048x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2x2048.size a ≤ S2x2048.size a
  hwx0_3 : ∀ i : grid0.Coords, EltTy.bits .f32 = 32 ∨ (Rect.block (s := S2x2048) S2x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1024x64.size a ≤ S2x16x2048x64.size a
  hwx0_4 : ∀ i : grid0.Coords, EltTy.bits .f32 = 32 ∨ (Rect.block (s := S2x16x2048x64) S1x1x1024x64.size (cc0_transform_4 i) (hinb0_4 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S2x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x1x1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2x16x2048x64 : Shape := ⟨4, ![2, 16, 2048, 64]⟩
abbrev S2x2048 : Shape := ⟨2, ![2, 2048]⟩
abbrev S2x16x2048x2048 : Shape := ⟨4, ![2, 16, 2048, 2048]⟩
abbrev S_ : Shape := ⟨0, ![]⟩
abbrev S2x1x1x2048 : Shape := ⟨4, ![2, 1, 1, 2048]⟩
abbrev S2x16x2048 : Shape := ⟨3, ![2, 16, 2048]⟩
abbrev S2x16x2048x1 : Shape := ⟨4, ![2, 16, 2048, 1]⟩

abbrev nBuf : Space → Nat
  | .hbm => 32
  | .vmem => 0
  | .smem => 0
  | _ => 0

abbrev bufTy : (tb : Table) → Fin (tcTables nBuf tb) → BufTy
  | .hbm, ⟨0, _⟩ => ⟨S2x16x2048x64, .f32⟩
  | .hbm, ⟨1, _⟩ => ⟨S2x16x2048x64, .f32⟩
  | .hbm, ⟨2, _⟩ => ⟨S2x16x2048x64, .f32⟩
  | .hbm, ⟨3, _⟩ => ⟨S2x2048, .f32⟩
  | .hbm, ⟨4, _⟩ => ⟨S2x16x2048x2048, .f32⟩
  | .hbm, ⟨5, _⟩ => ⟨S_, .f32⟩
  | .hbm, ⟨6, _⟩ => ⟨S2x16x2048x2048, .f32⟩
  | .hbm, ⟨7, _⟩ => ⟨S2x16x2048x2048, .f32⟩
  | .hbm, ⟨8, _⟩ => ⟨S2x1x1x2048, .f32⟩
  | .hbm, ⟨9, _⟩ => ⟨S_, .f32⟩
  | .hbm, ⟨10, _⟩ => ⟨S2x1x1x2048, .f32⟩
  | .hbm, ⟨11, _⟩ => ⟨S2x1x1x2048, .f32⟩
  | .hbm, ⟨12, _⟩ => ⟨S_, .f32⟩
  | .hbm, ⟨13, _⟩ => ⟨S2x1x1x2048, .f32⟩
  | .hbm, ⟨14, _⟩ => ⟨S2x1x1x2048, .f32⟩
  | .hbm, ⟨15, _⟩ => ⟨S2x16x2048x2048, .f32⟩
  | .hbm, ⟨16, _⟩ => ⟨S2x16x2048x2048, .f32⟩
  | .hbm, ⟨17, _⟩ => ⟨S_, .f32⟩
  | .hbm, ⟨18, _⟩ => ⟨S2x16x2048, .f32⟩
  | .hbm, ⟨19, _⟩ => ⟨S_, .f32⟩
  | .hbm, ⟨20, _⟩ => ⟨S2x16x2048, .f32⟩
  | .hbm, ⟨21, _⟩ => ⟨S2x16x2048, .f32⟩
  | .hbm, ⟨22, _⟩ => ⟨S2x16x2048x1, .f32⟩
  | .hbm, ⟨23, _⟩ => ⟨S2x16x2048x2048, .f32⟩
  | .hbm, ⟨24, _⟩ => ⟨S2x16x2048x2048, .f32⟩
  | .hbm, ⟨25, _⟩ => ⟨S2x16x2048x2048, .f32⟩
  | .hbm, ⟨26, _⟩ => ⟨S_, .f32⟩
  | .hbm, ⟨27, _⟩ => ⟨S2x16x2048, .f32⟩
  | .hbm, ⟨28, _⟩ => ⟨S2x16x2048x1, .f32⟩
  | .hbm, ⟨29, _⟩ => ⟨S2x16x2048x2048, .f32⟩
  | .hbm, ⟨30, _⟩ => ⟨S2x16x2048x2048, .f32⟩
  | .hbm, ⟨31, _⟩ => ⟨S2x16x2048x64, .f32⟩
  | _, _ => ⟨S2x16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]

class Facts₀ : Prop where
  bcast_S_S2x16x2048x2048 : S_.BroadcastsInDim S2x16x2048x2048 (![] : Fin 0 → Fin S2x16x2048x2048.rank)
  bcast_S2x2048_S2x1x1x2048_0_3 : S2x2048.BroadcastsInDim S2x1x1x2048 (![0, 3] : Fin 2 → Fin S2x1x1x2048.rank)
  bcast_S_S2x1x1x2048 : S_.BroadcastsInDim S2x1x1x2048 (![] : Fin 0 → Fin S2x1x1x2048.rank)
  bcast_S2x1x1x2048_S2x16x2048x2048_0_1_2_3 : S2x1x1x2048.BroadcastsInDim S2x16x2048x2048 (![0, 1, 2, 3] : Fin 4 → Fin S2x16x2048x2048.rank)
  reducesTo_S2x16x2048x2048_S2x16x2048_d3 : S2x16x2048x2048.ReducesTo [3] S2x16x2048
  h_S_ : 0 < S_.numel
  bcast_S_S2x16x2048 : S_.BroadcastsInDim S2x16x2048 (![] : Fin 0 → Fin S2x16x2048.rank)
  bcast_S2x16x2048_S2x16x2048x1_0_1_2 : S2x16x2048.BroadcastsInDim S2x16x2048x1 (![0, 1, 2] : Fin 3 → Fin S2x16x2048x1.rank)
  bcast_S2x16x2048x1_S2x16x2048x2048_0_1_2_3 : S2x16x2048x1.BroadcastsInDim S2x16x2048x2048 (![0, 1, 2, 3] : Fin 4 → Fin S2x16x2048x2048.rank)
  dot_S2x16x2048x64_S2x16x2048x64_S2x16x2048x2048_3_3_2_2_01_01_wf : DotDims.WF S2x16x2048x64 S2x16x2048x64 S2x16x2048x2048 [3] [3] [2] [2] [0, 1] [0, 1]
  dot_S2x16x2048x2048_S2x16x2048x64_S2x16x2048x64_3_2_2_3_01_01_wf : DotDims.WF S2x16x2048x2048 S2x16x2048x64 S2x16x2048x64 [3] [2] [2] [3] [0, 1] [0, 1]

variable [Facts₀]

def dot_S2x16x2048x64_S2x16x2048x64_S2x16x2048x2048_3_3_2_2_01_01 : DotDims S2x16x2048x64 S2x16x2048x64 S2x16x2048x2048 where
  lhsContracting := [3]
  rhsContracting := [3]
  lhsNonContracting := [2]
  rhsNonContracting := [2]
  lhsBatch := [0, 1]
  rhsBatch := [0, 1]
  wf := dot_S2x16x2048x64_S2x16x2048x64_S2x16x2048x2048_3_3_2_2_01_01_wf
def dot_S2x16x2048x2048_S2x16x2048x64_S2x16x2048x64_3_2_2_3_01_01 : DotDims S2x16x2048x2048 S2x16x2048x64 S2x16x2048x64 where
  lhsContracting := [3]
  rhsContracting := [2]
  lhsNonContracting := [2]
  rhsNonContracting := [3]
  lhsBatch := [0, 1]
  rhsBatch := [0, 1]
  wf := dot_S2x16x2048x2048_S2x16x2048x64_S2x16x2048x64_3_2_2_3_01_01_wf

class Facts : Prop extends Facts₀ where

variable [Facts]
-- ==== Proof.Body.lean ====
/-
  What one grid point leaves in the output's staging buffer.

  The body of the attention kernel loads the whole query block, the whole key block, the whole value block and ONE row of
  the additive bias (the row of the batch the point belongs to), computes one value from them, and stores it over the
  whole output block.  So what the point leaves is that value of the three blocks and of the bias row: the bias buffer
  read through the one-row rectangle whose row offset is the point's batch coordinate.
-/
import proofs.«172134_j55611236549123_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Body

open Cert.KernelIdeal Cert.KernelIdeal.Gen

variable {F : FTy → Type} [FloatOps F]

theorem zero4 : (![0, 0, 0, 0] : Fin 4 → Nat) = fun _ => 0 := funext fun a => by fin_cases a <;> rfl

/-- The row of the bias the body loads at grid point `i`: row `i 0` (the batch), all 2048 key positions. -/
abbrev biasRow (i : grid0.Coords) (x3 : Vec F S2x2048 .f32) : Vec F S1x2048 .f32 :=
  View.ld x3 (Rect.unit (s := S2x2048) (k0_off1 i) S1x2048.size (k0_off1_inb i))

/-- The output block after the body at point `i`: the body's value of the query, key and value blocks and the bias row. -/
theorem out_eq (c : Dev nD) (i : grid0.Coords) (arg3 : Memref sig .tc .vmem S1x1x1024x64 .f32) (harg3 : arg3.IsWhole)
    (arg4 : Memref sig .tc .vmem S1x1x2048x64 .f32) (harg4 : arg4.IsWhole) (arg5 : Memref sig .tc .vmem S1x1x2048x64 .f32) (harg5 : arg5.IsWhole)
    (arg6 : Memref sig .tc .vmem S2x2048 .f32) (harg6 : arg6.IsWhole) (arg7 : Memref sig .tc .vmem S1x1x1024x64 .f32) (harg7 : arg7.IsWhole)
    (x0 : Vec F S1x1x1024x64 .f32) (x1 : Vec F S1x1x2048x64 .f32) (x2 : Vec F S1x1x2048x64 .f32) (x3 : Vec F S2x2048 .f32) :
    out0_A_4 c i arg3 harg3 arg4 harg4 arg5 harg5 arg6 harg6 arg7 harg7 x0 x1 x2 x3 = k0_pay1 x0 x1 x2 (biasRow i x3) := by
  unfold out0_A_4
  rw [View.read_writes_eq_canon _ _ _ (cover0_A_4 c i arg3 harg3 arg4 harg4 arg5 harg5 arg6 harg6 arg7 harg7 x0 x1 x2 x3)]
  unfold kernelRun0_A
  dsimp only
  sl_unfold_words
  rw [View.canon_unit_zero zero4]
  simp only [View.readAt_eq_ld, harg3.read_unread, harg4.read_unread, harg5.read_unread, harg6.read_unread,
    View.ld_unit_zero (S := S1x1x1024x64) zero4, View.ld_unit_zero (S := S1x1x2048x64) zero4]
  rfl

end Cert.KernelIdeal.Body

end
-- ==== Proof.LibSoftmaxRow.lean ====
/-
  A softmax row over the extended reals, attended over a column of values, in two arrangements, and the law joining them.

  From the scores s k of one query against the keys k: the row maximum M (the fold of max over the scores, started at -inf),
  the weights w k = exp (s k - M), and, with v k one column of the values, the output entry.  Normalising AFTER the
  weighted sum it is  (∑ k, w k * v k) * (1 / ∑ k, w k);  normalising BEFORE it,  ∑ k, (w k / (0 + ∑ k', w k')) * v k,
  where the maximum may also have been taken once more against -inf (as a reduction with an initial value does).

  The two agree when the scores and the values are real numbers and there is at least one key: M is then a real (it is
  at least the first score and below +inf), every weight is a positive real, their sum is a positive real, and the identity is
  distributivity of the product over a finite sum of reals.  At infinite scores or values it can fail (0 * inf), which is
  why the statement asks for reals.  The constants are kept as the float words the programs spell (-inf, +0.0, 1.0).
-/
import Idealize.ShloMosaic.PureOps.Ideal
import Mathlib.Tactic.Ring
import Mathlib.Tactic.Positivity

noncomputable section

namespace Cert.SoftmaxRow

open Idealize.ShloMosaic

/-! ## The words -/

/-- The word of 1.0 denotes 1. -/
theorem ofBits_one : Ideal.ofBits .f32 0x3F800000#32 = ((1 : ℝ) : EReal) := by
  simp [Ideal.ofBits, Ideal.ieee, -EReal.coe_mul]; norm_num

/-- The word of -inf denotes the bottom of the extended reals. -/
theorem ofBits_neg_inf : Ideal.ofBits .f32 0xFF800000#32 = (⊥ : EReal) := by
  simp [Ideal.ofBits, Ideal.ieee]

/-- The word of +inf denotes the top of the extended reals. -/
theorem ofBits_pos_inf : Ideal.ofBits .f32 0x7F800000#32 = (⊤ : EReal) := by
  simp [Ideal.ofBits, Ideal.ieee]

/-- The word of +0.0 denotes 0. -/
theorem ofBits_zero : Ideal.ofBits .f32 0x00000000#32 = (0 : EReal) := by
  simp [Ideal.ofBits, Ideal.ieee]

/-! ## A row, in two arrangements -/

variable {n : ℕ}

/-- The row maximum: the fold of `max` over the scores, from -inf. -/
def rowMax (s : Fin n → EReal) : EReal :=
  (Finset.univ : Finset (Fin n)).fold max (Ideal.ofBits .f32 0xFF800000#32) s

/-- Normalising AFTER the weighted sum: `(∑ k, w k * v k) * (1 / ∑ k, w k)` with `w k = exp (s k - M)`. -/
def attendAfter (s v : Fin n → EReal) : EReal :=
  (∑ k, Ideal.exp (s k - rowMax s) * v k)
    * Ideal.div (Ideal.ofBits .f32 0x3F800000#32) (∑ k, Ideal.exp (s k - rowMax s))

/-- Normalising BEFORE it, with the maximum taken once more against -inf and the sum started at 0:
    `∑ k, (w k / (0 + ∑ k', w k')) * v k`. -/
def attendBefore (s v : Fin n → EReal) : EReal :=
  ∑ k, Ideal.div (Ideal.exp (s k - max (Ideal.ofBits .f32 0xFF800000#32) (rowMax s)))
      (Ideal.ofBits .f32 0x00000000#32 + ∑ k', Ideal.exp (s k' - max (Ideal.ofBits .f32 0xFF800000#32) (rowMax s))) * v k

/-- The coercion of a finite sum of reals is the sum of the coercions. -/
theorem coe_sum {ι : Type*} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- The maximum of a nonempty row of reals is a real. -/
theorem rowMax_coe (hn : 0 < n) (s : Fin n → ℝ) : ∃ M : ℝ, rowMax (fun k => (s k : EReal)) = (M : EReal) := by
  have hbot : rowMax (fun k => (s k : EReal)) ≠ ⊥ := by
    have h0 : ((s ⟨0, hn⟩ : ℝ) : EReal) ≤ rowMax (fun k => (s k : EReal)) :=
      Finset.le_fold_max (s := Finset.univ) (f := fun k => (s k : EReal)) (b := Ideal.ofBits .f32 0xFF800000#32) _ |>.mpr
        (Or.inr ⟨⟨0, hn⟩, Finset.mem_univ _, le_refl _⟩)
    intro h
    rw [h] at h0
    exact absurd (le_bot_iff.mp h0) (EReal.coe_ne_bot _)
  have htop : rowMax (fun k => (s k : EReal)) ≠ ⊤ := by
    have : rowMax (fun k => (s k : EReal)) < ⊤ := by
      unfold rowMax
      rw [Finset.fold_max_lt]
      exact ⟨by rw [ofBits_neg_inf]; exact bot_lt_top, fun k _ => EReal.coe_lt_top _⟩
    exact ne_of_lt this
  exact ⟨(rowMax (fun k => (s k : EReal))).toReal, (EReal.coe_toReal htop hbot).symm⟩

/-- For real scores and values and at least one key, the two arrangements of a row agree. -/
theorem attendBefore_eq_after (hn : 0 < n) (s v : Fin n → ℝ) :
    attendBefore (fun k => (s k : EReal)) (fun k => (v k : EReal))
      = attendAfter (fun k => (s k : EReal)) (fun k => (v k : EReal)) := by
  obtain ⟨M, hM⟩ := rowMax_coe hn s
  unfold attendBefore attendAfter
  rw [hM, ofBits_neg_inf, max_eq_right bot_le, ofBits_zero, ofBits_one]
  have hw : ∀ k, Ideal.exp ((s k : EReal) - (M : EReal)) = ((Real.exp (s k - M) : ℝ) : EReal) := fun k => by
    rw [← EReal.coe_sub]; rfl
  simp only [hw]
  have hl : (0 : ℝ) < ∑ k, Real.exp (s k - M) :=
    Finset.sum_pos (fun k _ => Real.exp_pos _) ⟨⟨0, hn⟩, Finset.mem_univ _⟩
  rw [← coe_sum, zero_add, Ideal.div_coe (ne_of_gt hl)]
  simp only [Ideal.div_coe (ne_of_gt hl), ← EReal.coe_mul, ← coe_sum]
  congr 1
  rw [one_mul, Finset.sum_mul]
  exact Finset.sum_congr rfl fun k _ => by ring

end Cert.SoftmaxRow

end
-- ==== Proof.RowLaw.lean ====
/-
  A score of this kernel over the extended reals, in the two arrangements the two programs compute it in.

  With d the dot product of a query with a key and m the mask entry of the key, one program scores the key as
  d * (1/8) + (-(1 - m)) * 10^6,  the other as  d / 8 - 10^6 * (1 - m).  These agree on EVERY extended real: dividing by 8
  is multiplying by its reciprocal, 0.125 is exactly 1/8, and the sign and the order of the factors of the bias move freely.
  A score of a real dot product and a real mask entry is a real.
-/
import proofs.«172134_j55611236549123_2_alg».proof.Proof.LibSoftmaxRow

noncomputable section

namespace Cert.Attn

open Idealize.ShloMosaic Cert.SoftmaxRow

/-! ## The constants of the scaling and of the bias -/

/-- The word of 0.125 denotes 1/8. -/
theorem ofBits_eighth : Ideal.ofBits .f32 0x3E000000#32 = ((1 / 8 : ℝ) : EReal) := by
  simp [Ideal.ofBits, Ideal.ieee, -EReal.coe_mul]; norm_num

/-- The word of 8.0 denotes 8. -/
theorem ofBits_eight : Ideal.ofBits .f32 0x41000000#32 = ((8 : ℝ) : EReal) := by
  simp [Ideal.ofBits, Ideal.ieee, -EReal.coe_mul]; norm_num

/-- The word of 1e6 denotes 10^6. -/
theorem ofBits_million : Ideal.ofBits .f32 0x49742400#32 = ((1000000 : ℝ) : EReal) := by
  simp [Ideal.ofBits, Ideal.ieee, -EReal.coe_mul]; norm_num

/-! ## A score, in two arrangements -/

/-- The additive bias of a key whose mask entry is `m`: `(-(1 - m)) * 10^6`. -/
def biasOf (m : EReal) : EReal :=
  (-(Ideal.ofBits .f32 0x3F800000#32 - m)) * Ideal.ofBits .f32 0x49742400#32

/-- A dot product scaled by 1/8, plus a bias. -/
def scoreOf (d bias : EReal) : EReal := d * Ideal.ofBits .f32 0x3E000000#32 + bias

/-- The other arrangement: the dot product divided by 8, minus `10^6 * (1 - m)`. -/
def scoreDiv (d m : EReal) : EReal :=
  Ideal.div d (Ideal.ofBits .f32 0x41000000#32) - Ideal.ofBits .f32 0x49742400#32 * (Ideal.ofBits .f32 0x3F800000#32 - m)

/-- The two arrangements of a score agree on every extended real. -/
theorem scoreDiv_eq (d m : EReal) : scoreDiv d m = scoreOf d (biasOf m) := by
  unfold scoreDiv scoreOf biasOf
  rw [ofBits_eight, Ideal.div_coe (by norm_num : (8 : ℝ) ≠ 0), ofBits_eighth, sub_eq_add_neg, neg_mul, mul_comm (Ideal.ofBits .f32 0x49742400#32)]

/-- A score of real operands is a real. -/
theorem scoreOf_biasOf_coe (d m : ℝ) : ∃ s : ℝ, scoreOf (d : EReal) (biasOf (m : EReal)) = (s : EReal) := by
  refine ⟨d * (1 / 8) + (-(1 - m)) * 1000000, ?_⟩
  unfold scoreOf biasOf
  rw [ofBits_eighth, ofBits_one, ofBits_million]
  norm_cast

end Cert.Attn

end
-- ==== Proof.LibRowReduce.lean ====
/-
  A matrix reduced along its rows, the result kept as a column: the layout steps and the reductions, read at an index.

  A reduction of an `[a, b]` matrix over its second axis yields a vector of `a` entries.  Kept as a column it is cast to
  `[a, 1]`, and to meet the matrix again it is broadcast back to `[a, b]`: entry `(i, j)` of the broadcast is entry `i` of
  the vector.  The reductions themselves, at the extended reals: a row's maximum is the fold of `max` over the row from
  the starting value, a row's sum is the sum over the row.  The same two readings hold for the last axis of an
  `[n, a, b]` array reduced by a host program, where the starting value is added in front of the sum.
-/
import Idealize.ShloMosaic.Lib.Pipeline.Value
import Idealize.ShloMosaic.Lib.ValueIdx
import Idealize.ShloMosaic.PureOps.Ideal.Laws

noncomputable section

namespace Cert.RowReduce

open Idealize.ShloMosaic Idealize.ShloMosaic.ValueIdx

variable {α : Type}

/-! ## The column of a vector -/

/-- A vector of `a` entries cast to a column `[a, 1]` reads, at `(i, u)`, the vector's entry `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along the rows of an `[a, b]` matrix reads, at `(i, j)`, the column's entry `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- So a vector kept as a column and broadcast along the rows reads, at `(i, j)`, the vector's entry `i`. -/
theorem broadcastTo_column_apply {a b : ℕ} (x : (⟨1, ![a]⟩ : Shape).Idx → α) (hc : (⟨1, ![a]⟩ : Shape).ShapeCasts ⟨2, ![a, 1]⟩)
    (hb : (⟨2, ![a, 1]⟩ : Shape).Broadcasts ⟨2, ![a, b]⟩) (i : Fin a) (j : Fin b) :
    broadcastTo ⟨2, ![a, b]⟩ (shapeCast ⟨2, ![a, 1]⟩ x hc) hb (ix2 i j) = x (ix1 i) := by
  rw [broadcastTo_a1_ab_apply, shapeCast_a_a1_apply]

/-! ## A matrix reduced along its rows -/

/-- Over entry `i` of the reduced vector, the matrix index with `k` on the reduced axis is `(i, k)`. -/
theorem lift_row {a b : ℕ} (h : (⟨2, ![a, b]⟩ : Shape).Reduces [1] ⟨1, ![a]⟩) (i : Fin a) (k : Fin b) :
    h.lift (ix1 i) k = ix2 i k :=
  funext fun c => Fin.ext (by match c with | ⟨0, _⟩ => rfl | ⟨1, _⟩ => rfl)

variable {φ : FTy}

/-- A row's maximum at the extended reals: the fold of `max` over the row's entries from the starting value. -/
theorem multiReduction_maximumf_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  have e : (X ∘ h.lift (ix1 i)) = fun k => X (ix2 i k) := funext fun k => congrArg X (lift_row h i k)
  rw [Ideal.multiReduction_maximumf_single, e]
  rfl

/-- A row's sum at the extended reals: the sum over the row's entries. -/
theorem multiReduction_add_row {a b : ℕ} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ X acc h hφ hacc (ix1 i) = ∑ k : Fin b, X (ix2 i k) := by
  rw [Ideal.multiReduction_add_single]
  exact Finset.sum_congr rfl fun k _ => congrArg X (lift_row h i k)

/-! ## The last axis of a rank-3 array reduced by a host program -/

/-- Over entry `(p, i)` of the reduced array, the source index with `k` on the reduced axis is `(p, i, k)`. -/
theorem lift_last3 {n a b : ℕ} (h : (⟨3, ![n, a, b]⟩ : Shape).Reduces [2] ⟨2, ![n, a]⟩) (p : Fin n) (i : Fin a) (k : Fin b) :
    h.lift (ix2 p i) k = ix3 p i k :=
  funext fun c => Fin.ext (by match c with | ⟨0, _⟩ => rfl | ⟨1, _⟩ => rfl | ⟨2, _⟩ => rfl)

/-- A host maximum over the last axis: the fold of `max` over that axis from the starting value. -/
theorem hostReduce_maximumf_last3 {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (p : Fin n) (i : Fin a) :
    Host.reduce (FloatOps.maximumf (F := Ideal) (φ := φ)) x init h' hu (ix2 p i)
      = (Finset.univ : Finset (Fin b)).fold max (init (Shape.Idx.first hu)) (fun k => x (ix3 p i k)) := by
  have e : (x ∘ h.lift (ix2 p i)) = fun k => x (ix3 p i k) := funext fun k => congrArg x (lift_last3 h p i k)
  rw [Host.reduce_eq_fold_single (FloatOps.maximumf (F := Ideal) (φ := φ)) x init h' h hu, e]
  rfl

/-- A host sum over the last axis: the starting value plus the sum over that axis. -/
theorem hostReduceAdd_last3 {n a b : ℕ} (x : (⟨3, ![n, a, b]⟩ : Shape).Idx → EReal) (init : EReal)
    (h' : (⟨3, ![n, a, b]⟩ : Shape).ReducesTo [2] ⟨2, ![n, a]⟩) (h : (⟨3, ![n, a, b]⟩ : Shape).Reduces [2] ⟨2, ![n, a]⟩)
    (p : Fin n) (i : Fin a) :
    Ideal.hostReduceAdd h' x init (ix2 p i) = init + ∑ k : Fin b, x (ix3 p i k) := by
  rw [Ideal.hostReduceAdd_single h' h]
  exact congrArg (init + ·) (Finset.sum_congr rfl fun k _ => congrArg x (lift_last3 h p i k))

end Cert.RowReduce

end
-- ==== Proof.Payload.lean ====
/-
  The body's value at one entry of the output block.

  From the query block x0 [1024 x 64], the key block x1 [2048 x 64], the value block x2 [2048 x 64] and the bias row r
  [2048] the body computes, for query row q and output column d:

    the scores    s k = (∑ e, x0 (q, e) * x1 (k, e)) * (1/8) + r k        (a matrix product, a scaling, the bias on every row)
    the maximum   M   = the fold of max over k of s k, from -inf          (a row reduction kept as a column)
    the weights   w k = exp (s k - M)
    the value     (∑ k, w k * x2 (k, d)) * (1 / ∑ k, w k)                 (a second matrix product, normalised afterwards)

  The changes of float format between these steps are the identity over the extended reals, and the leading unit axes
  of the blocks only re-index.  Each step is read at an index below, and the body's printed value is their composition.
-/
import proofs.«172134_j55611236549123_2_alg».proof.Proof.Gen.KernelIdeal.Skeleton
import proofs.«172134_j55611236549123_2_alg».proof.Proof.RowLaw
import proofs.«172134_j55611236549123_2_alg».proof.Proof.LibRowReduce
import Idealize.ShloMosaic.Lib.Pipeline.Value
import Idealize.ShloMosaic.Lib.ValueIdx
import Idealize.ShloMosaic.Lib.ValueLayout
import Idealize.ShloMosaic.PureOps.Ideal.Laws

noncomputable section

open Idealize.ShloMosaic Idealize.ShloMosaic.ValueIdx

namespace Cert.KernelIdeal.Pay

open Cert.KernelIdeal Cert.KernelIdeal.Gen Cert.Attn Cert.SoftmaxRow Cert.RowReduce

/-! ## The blocks' leading unit axes -/

/-- A `[1, 1, a, b]` block viewed as an `[a, b]` matrix reads, at `(i, j)`, the block at `(0, 0, i, j)`. -/
theorem cast_11ab_ab_apply {α : Type} {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` matrix viewed as a `[1, 1, a, b]` block reads, at `(0, 0, i, j)`, the matrix at `(i, j)`. -/
theorem cast_ab_11ab_apply {α : Type} {a b : ℕ} (x : (⟨2, ![a, b]⟩ : Shape).Idx → α)
    (h : (⟨2, ![a, b]⟩ : Shape).ShapeCasts ⟨4, ![1, 1, a, b]⟩) (i : Fin a) (j : Fin b) :
    shapeCast ⟨4, ![1, 1, a, b]⟩ x h (ix4 (0 : Fin 1) (0 : Fin 1) i j) = x (ix2 i j) :=
  shapeCast_apply x h _ _ (by
    rw [Shape.rowMajor_val_four, Shape.rowMajor_val_two]
    show i.val * b + j.val = ((0 * 1 + 0) * a + i.val) * b + j.val
    simp only [Nat.zero_mul, Nat.zero_add])

/-! ## The two matrix products -/

/-- Queries against keys: the left operand's row is the output's row, -/
theorem qk_lhs_row (j : S1024x2048.Idx) (c : dot_S1024x64_S2048x64_S1024x2048_1_1_0_0_n_n.contr.Idx) : (dot_S1024x64_S2048x64_S1024x2048_1_1_0_0_n_n.lhsIdx j c 0).val = (j 0).val := by
  unfold DotDims.lhsIdx
  rw [dif_neg (show ¬(0 : Fin S1024x64.rank) ∈ dot_S1024x64_S2048x64_S1024x2048_1_1_0_0_n_n.lhsBatch by decide),
    dif_pos (show (0 : Fin S1024x64.rank) ∈ dot_S1024x64_S2048x64_S1024x2048_1_1_0_0_n_n.lhsNonContracting by decide)]
  rfl

/-- and the right operand's row is the output's column. -/
theorem qk_rhs_row (j : S1024x2048.Idx) (c : dot_S1024x64_S2048x64_S1024x2048_1_1_0_0_n_n.contr.Idx) : (dot_S1024x64_S2048x64_S1024x2048_1_1_0_0_n_n.rhsIdx j c 0).val = (j 1).val := by
  unfold DotDims.rhsIdx
  rw [dif_neg (show ¬(0 : Fin S2048x64.rank) ∈ dot_S1024x64_S2048x64_S1024x2048_1_1_0_0_n_n.rhsBatch by decide),
    dif_pos (show (0 : Fin S2048x64.rank) ∈ dot_S1024x64_S2048x64_S1024x2048_1_1_0_0_n_n.rhsNonContracting by decide)]
  rfl

/-- Queries against keys: entry `(q, k)` is the sum over the 64 features of query `q` times key `k`. -/
theorem qk_apply (A : FVec Ideal S1024x64 .bf16) (B : FVec Ideal S2048x64 .bf16) (q : Fin 1024) (k : Fin 2048) :
    matmul dot_S1024x64_S2048x64_S1024x2048_1_1_0_0_n_n none A B (constant (F := Ideal) S1024x2048 .f32 0x00000000#32) (ix2 q k)
      = ∑ e : Fin 64, A (ix2 q e) * B (ix2 k e) := by
  simp only [matmul]
  rw [Ideal.matmul_constant_zero_apply, ← Equiv.sum_comp (contrEquiv1 dot_S1024x64_S2048x64_S1024x2048_1_1_0_0_n_n 64 rfl rfl).symm]
  refine Finset.sum_congr rfl fun e _ => ?_
  have he := contrEquiv1_symm_val dot_S1024x64_S2048x64_S1024x2048_1_1_0_0_n_n 64 rfl rfl e
  have el : dot_S1024x64_S2048x64_S1024x2048_1_1_0_0_n_n.lhsIdx (ix2 q k) ((contrEquiv1 dot_S1024x64_S2048x64_S1024x2048_1_1_0_0_n_n 64 rfl rfl).symm e) = ix2 q e :=
    funext fun a => Fin.ext (by
      match a with
      | ⟨0, _⟩ => exact qk_lhs_row _ _
      | ⟨1, _⟩ => exact (dot_S1024x64_S2048x64_S1024x2048_1_1_0_0_n_n.lhsIdx_val_of_single rfl _ _).trans he)
  have er : dot_S1024x64_S2048x64_S1024x2048_1_1_0_0_n_n.rhsIdx (ix2 q k) ((contrEquiv1 dot_S1024x64_S2048x64_S1024x2048_1_1_0_0_n_n 64 rfl rfl).symm e) = ix2 k e :=
    funext fun a => Fin.ext (by
      match a with
      | ⟨0, _⟩ => exact qk_rhs_row _ _
      | ⟨1, _⟩ => exact (dot_S1024x64_S2048x64_S1024x2048_1_1_0_0_n_n.rhsIdx_val_of_single rfl _ _).trans he)
  rw [el, er]

/-- Weights against values: the left operand's row is the output's row, -/
theorem pv_lhs_row (j : S1024x64.Idx) (c : dot_S1024x2048_S2048x64_S1024x64_1_0_0_1_n_n.contr.Idx) : (dot_S1024x2048_S2048x64_S1024x64_1_0_0_1_n_n.lhsIdx j c 0).val = (j 0).val := by
  unfold DotDims.lhsIdx
  rw [dif_neg (show ¬(0 : Fin S1024x2048.rank) ∈ dot_S1024x2048_S2048x64_S1024x64_1_0_0_1_n_n.lhsBatch by decide),
    dif_pos (show (0 : Fin S1024x2048.rank) ∈ dot_S1024x2048_S2048x64_S1024x64_1_0_0_1_n_n.lhsNonContracting by decide)]
  rfl

/-- and the right operand's column is the output's column. -/
theorem pv_rhs_col (j : S1024x64.Idx) (c : dot_S1024x2048_S2048x64_S1024x64_1_0_0_1_n_n.contr.Idx) : (dot_S1024x2048_S2048x64_S1024x64_1_0_0_1_n_n.rhsIdx j c 1).val = (j 1).val := by
  unfold DotDims.rhsIdx
  rw [dif_neg (show ¬(1 : Fin S2048x64.rank) ∈ dot_S1024x2048_S2048x64_S1024x64_1_0_0_1_n_n.rhsBatch by decide),
    dif_pos (show (1 : Fin S2048x64.rank) ∈ dot_S1024x2048_S2048x64_S1024x64_1_0_0_1_n_n.rhsNonContracting by decide)]
  rfl

/-- Weights against values: entry `(q, d)` is the sum over the 2048 keys of weight `(q, k)` times value `(k, d)`. -/
theorem pv_apply (A : FVec Ideal S1024x2048 .bf16) (B : FVec Ideal S2048x64 .bf16) (q : Fin 1024) (d : Fin 64) :
    matmul dot_S1024x2048_S2048x64_S1024x64_1_0_0_1_n_n none A B (constant (F := Ideal) S1024x64 .f32 0x00000000#32) (ix2 q d)
      = ∑ k : Fin 2048, A (ix2 q k) * B (ix2 k d) := by
  simp only [matmul]
  rw [Ideal.matmul_constant_zero_apply, ← Equiv.sum_comp (contrEquiv1 dot_S1024x2048_S2048x64_S1024x64_1_0_0_1_n_n 2048 rfl rfl).symm]
  refine Finset.sum_congr rfl fun k _ => ?_
  have hk := contrEquiv1_symm_val dot_S1024x2048_S2048x64_S1024x64_1_0_0_1_n_n 2048 rfl rfl k
  have el : dot_S1024x2048_S2048x64_S1024x64_1_0_0_1_n_n.lhsIdx (ix2 q d) ((contrEquiv1 dot_S1024x2048_S2048x64_S1024x64_1_0_0_1_n_n 2048 rfl rfl).symm k) = ix2 q k :=
    funext fun a => Fin.ext (by
      match a with
      | ⟨0, _⟩ => exact pv_lhs_row _ _
      | ⟨1, _⟩ => exact (dot_S1024x2048_S2048x64_S1024x64_1_0_0_1_n_n.lhsIdx_val_of_single rfl _ _).trans hk)
  have er : dot_S1024x2048_S2048x64_S1024x64_1_0_0_1_n_n.rhsIdx (ix2 q d) ((contrEquiv1 dot_S1024x2048_S2048x64_S1024x64_1_0_0_1_n_n 2048 rfl rfl).symm k) = ix2 k d :=
    funext fun a => Fin.ext (by
      match a with
      | ⟨0, _⟩ => exact (dot_S1024x2048_S2048x64_S1024x64_1_0_0_1_n_n.rhsIdx_val_of_single rfl _ _).trans hk
      | ⟨1, _⟩ => exact pv_rhs_col _ _)
  rw [el, er]

/-! ## The steps of the body -/

/-- The scores of a query block against the key block: the product scaled by 1/8, plus the bias row on every row. -/
def scores (x0 : Vec Ideal S1x1x1024x64 .f32) (x1 : Vec Ideal S1x1x2048x64 .f32) (r : Vec Ideal S1x2048 .f32) : FVec Ideal S1024x2048 .f32 :=
  addf (mulf (matmul dot_S1024x64_S2048x64_S1024x2048_1_1_0_0_n_n none
          (truncf .bf16 (shapeCast S1024x64 x0 shapeCasts_S1x1x1024x64_S1024x64) bitsLt_bf16_f32)
          (truncf .bf16 (shapeCast S2048x64 x1 shapeCasts_S1x1x2048x64_S2048x64) bitsLt_bf16_f32)
          (constant S1024x2048 .f32 0x00000000#32))
        (broadcast S1024x2048 (Scalar.ofBits .f32 0x3E000000#32 : Ideal .f32)))
    (broadcastTo S1024x2048 (shapeCast S1x2048 (shapeCast S2048 r shapeCasts_S1x2048_S2048) shapeCasts_S2048_S1x2048)
      broadcasts_S1x2048_S1024x2048)

theorem scores_apply (x0 : Vec Ideal S1x1x1024x64 .f32) (x1 : Vec Ideal S1x1x2048x64 .f32) (r : Vec Ideal S1x2048 .f32)
    (q : Fin 1024) (k : Fin 2048) :
    scores x0 x1 r (ix2 q k)
      = scoreOf (∑ e : Fin 64, x0 (ix4 (0 : Fin 1) (0 : Fin 1) q e) * x1 (ix4 (0 : Fin 1) (0 : Fin 1) k e)) (r (ix2 (0 : Fin 1) k)) := by
  unfold scores scoreOf
  rw [addf_apply, mulf_apply, broadcast_apply, broadcastTo_1b_ab_apply, shapeCast_a_1a_apply, shapeCast_1a_a_apply, qk_apply]
  simp only [truncf_apply, cast_11ab_ab_apply]
  rfl

/-- The weights of a scores matrix: on each row, `exp` of the score minus the row's maximum. -/
def weights (S : FVec Ideal S1024x2048 .f32) : FVec Ideal S1024x2048 .f32 :=
  exp (subf S (broadcastTo S1024x2048
    (shapeCast S1024x1 (multiReduction (F := Ideal) .maximumf [1] S1024 S 0xFF800000#32 reduces_S1024x2048_S1024 (.inl rfl) rfl)
      shapeCasts_S1024_S1024x1) broadcasts_S1024x1_S1024x2048))

theorem weights_apply (S : FVec Ideal S1024x2048 .f32) (q : Fin 1024) (k : Fin 2048) :
    weights S (ix2 q k) = Ideal.exp (S (ix2 q k) - rowMax fun k' : Fin 2048 => S (ix2 q k')) := by
  unfold weights
  show Ideal.exp (S (ix2 q k) - broadcastTo S1024x2048 _ broadcasts_S1024x1_S1024x2048 (ix2 q k)) = _
  rw [broadcastTo_column_apply]
  exact congrArg (fun z => Ideal.exp (S (ix2 q k) - z))
    (multiReduction_maximumf_row S 0xFF800000#32 reduces_S1024x2048_S1024 (.inl rfl) rfl q)

/-- The normaliser of a weights matrix, as it meets the output: on each row, one over the row's sum. -/
def recipSum (W : FVec Ideal S1024x2048 .f32) : FVec Ideal S1024x64 .f32 :=
  broadcastTo S1024x64
    (divf (broadcast S1024x1 (Scalar.ofBits .f32 0x3F800000#32 : Ideal .f32))
      (shapeCast S1024x1 (multiReduction (F := Ideal) .add [1] S1024 W 0x00000000#32 reduces_S1024x2048_S1024 (.inl rfl) rfl)
        shapeCasts_S1024_S1024x1))
    broadcasts_S1024x1_S1024x64

theorem recipSum_apply (W : FVec Ideal S1024x2048 .f32) (q : Fin 1024) (d : Fin 64) :
    recipSum W (ix2 q d) = Ideal.div (Ideal.ofBits .f32 0x3F800000#32) (∑ k : Fin 2048, W (ix2 q k)) := by
  unfold recipSum
  rw [broadcastTo_a1_ab_apply, divf_apply, broadcast_apply, shapeCast_a_a1_apply]
  exact congrArg (Ideal.div _) (multiReduction_add_row W 0x00000000#32 reduces_S1024x2048_S1024 (.inl rfl) rfl q)

/-! ## The body's value -/

/-- The printed value is the composition of the steps. -/
theorem pay_eq (x0 : Vec Ideal S1x1x1024x64 .f32) (x1 x2 : Vec Ideal S1x1x2048x64 .f32) (r : Vec Ideal S1x2048 .f32) :
    k0_pay1 x0 x1 x2 r
      = shapeCast S1x1x1024x64
          (mulf (matmul dot_S1024x2048_S2048x64_S1024x64_1_0_0_1_n_n none
              (truncf .bf16 (weights (scores x0 x1 r)) bitsLt_bf16_f32)
              (truncf .bf16 (shapeCast S2048x64 x2 shapeCasts_S1x1x2048x64_S2048x64) bitsLt_bf16_f32)
              (constant S1024x64 .f32 0x00000000#32))
            (recipSum (weights (scores x0 x1 r))))
          shapeCasts_S1024x64_S1x1x1024x64 := rfl

/-- The body's value at query row `q` and column `d`: the row of scores attended over the value block's column `d`,
    normalised after the weighted sum. -/
theorem pay_apply (x0 : Vec Ideal S1x1x1024x64 .f32) (x1 x2 : Vec Ideal S1x1x2048x64 .f32) (r : Vec Ideal S1x2048 .f32)
    (q : Fin 1024) (d : Fin 64) :
    k0_pay1 x0 x1 x2 r (ix4 (0 : Fin 1) (0 : Fin 1) q d)
      = attendAfter (fun k : Fin 2048 => scoreOf (∑ e : Fin 64, x0 (ix4 (0 : Fin 1) (0 : Fin 1) q e) * x1 (ix4 (0 : Fin 1) (0 : Fin 1) k e)) (r (ix2 (0 : Fin 1) k)))
          (fun k : Fin 2048 => x2 (ix4 (0 : Fin 1) (0 : Fin 1) k d)) := by
  rw [pay_eq, cast_ab_11ab_apply, mulf_apply, pv_apply, recipSum_apply]
  unfold attendAfter
  simp only [truncf_apply, weights_apply, scores_apply, cast_11ab_ab_apply]

end Cert.KernelIdeal.Pay

end
-- ==== Proof.Spec.lean ====
/-
  The specification: attention with an additive key mask, entry by entry.

  For batch b, head h, query position q and feature d, over arrays Q, K, V of shape [2, 16, 2048, 64] and a mask of shape
  [2, 2048]:  the row of scores  s k = (∑ e, Q (b,h,q,e) * K (b,h,k,e)) * (1/8) + bias (b,k)  over the 2048 keys, attended
  over column d of V (normalising after the weighted sum), where the bias of a key is  (-(1 - mask (b,k))) * 10^6.
-/
import proofs.«172134_j55611236549123_2_alg».proof.Proof.RowLaw
import Idealize.ShloMosaic.Lib.ValueIdx

noncomputable section

namespace Cert.Attn

open Idealize.ShloMosaic Idealize.ShloMosaic.ValueIdx Cert.SoftmaxRow

/-- The shape of the queries, keys, values and of the output. -/
abbrev SQ : Shape := ⟨4, ![2, 16, 2048, 64]⟩
/-- The shape of the mask, and of the bias computed from it. -/
abbrev SM : Shape := ⟨2, ![2, 2048]⟩

/-- One output entry from the three arrays and a BIAS array. -/
def attnBias (Q K V : SQ.Idx → EReal) (B : SM.Idx → EReal) (b : Fin 2) (h : Fin 16) (q : Fin 2048) (d : Fin 64) : EReal :=
  attendAfter (fun k : Fin 2048 => scoreOf (∑ e : Fin 64, Q (ix4 b h q e) * K (ix4 b h k e)) (B (ix2 b k)))
    (fun k : Fin 2048 => V (ix4 b h k d))

/-- One output entry from the three arrays and the MASK. -/
def attn (Q K V : SQ.Idx → EReal) (M : SM.Idx → EReal) (b : Fin 2) (h : Fin 16) (q : Fin 2048) (d : Fin 64) : EReal :=
  attnBias Q K V (fun j => biasOf (M j)) b h q d

/-- The whole output array. -/
def G (Q K V : SQ.Idx → EReal) (M : SM.Idx → EReal) : SQ.Idx → EReal := fun i =>
  attn Q K V M ⟨(i 0).val, (i 0).isLt⟩ ⟨(i 1).val, (i 1).isLt⟩ ⟨(i 2).val, (i 2).isLt⟩ ⟨(i 3).val, (i 3).isLt⟩

theorem G_ix4 (Q K V : SQ.Idx → EReal) (M : SM.Idx → EReal) (b : Fin 2) (h : Fin 16) (q : Fin 2048) (d : Fin 64) :
    G Q K V M (ix4 b h q d) = attn Q K V M b h q d := rfl

end Cert.Attn

end
-- ==== Proof.Whole.lean ====
/-
  From blocks to the array: after the kernel's run the output array is the specification of the four inputs.

  The grid has one point per (batch b, head h, query tile), 64 in all.  At a point the body sees: the query tile of (b, h)
  — rows tile * 1024 .. tile * 1024 + 1023 —, all 2048 keys and values of (b, h), and the whole bias array, of which it
  reads row b.  The bias array is computed before the launch from the mask, entry by entry (-(1 - mask)) * 10^6.  So what
  the point writes back is, at block entry (q, d), the specification at (b, h, tile * 1024 + q, d): its block of the
  specification.  Every index of the output lies in exactly the block of the point (b, h, row / 1024), so the blocks
  cover the array and the array ends holding the specification everywhere.
-/
import proofs.«172134_j55611236549123_2_alg».proof.Proof.Gen.KernelIdeal.Value
import proofs.«172134_j55611236549123_2_alg».proof.Proof.Body
import proofs.«172134_j55611236549123_2_alg».proof.Proof.Payload
import proofs.«172134_j55611236549123_2_alg».proof.Proof.Spec
import Idealize.ShloMosaic.Lib.Pipeline.Value
import Idealize.ShloMosaic.Lib.StableHlo.Run
import Idealize.ShloMosaic.Lib.ValueIdx

noncomputable section
open Idealize.ShloMosaic Idealize.ShloMosaic.TcCoe Idealize.SL.Sem Idealize.ShloMosaic.ValueIdx
open Idealize.ShloMosaic.Pipeline (Dat)

namespace Cert.KernelIdeal.Whole
open Cert.KernelIdeal Cert.KernelIdeal.Gen Cert.Attn Cert.SoftmaxRow

variable (m : (ℓ : Loc nD τ sig) → Buf (Elt Ideal) ℓ) (ρ : Dev nD → PrngReg)

/-! ## The bias array the launch finds -/

/-- The bias array is the host's operations of the mask: negate (1 - mask), times 10^6. -/
theorem bias_eq (c : Dev nD) : (V m c main_v4 : S2x2048.Idx → EReal)
    = mulf (Host.negf (subf (broadcastInDim S2x2048 ![] bcast_S_S2x2048 (constant (F := Ideal) S_ .f32 0x3F800000#32)) (m ((c : Thread nD τ).loc main_arg3))))
        (broadcastInDim S2x2048 ![] bcast_S_S2x2048 (constant (F := Ideal) S_ .f32 0x49742400#32)) := by
  dsimp only [Gen.V, Gen.hostOps0]; after_results

/-- Entry `(b, k)` of the bias array is the bias of mask entry `(b, k)`. -/
theorem bias_apply (c : Dev nD) (b : Fin 2) (k : Fin 2048) :
    (V m c main_v4 : S2x2048.Idx → EReal) (ix2 b k) = biasOf (m ((c : Thread nD τ).loc main_arg3) (ix2 b k)) := by
  rw [bias_eq]
  unfold biasOf
  rw [mulf_apply]
  have e1 : broadcastInDim S2x2048 ![] bcast_S_S2x2048 (constant (F := Ideal) S_ .f32 0x3F800000#32) (ix2 b k) = Ideal.ofBits .f32 0x3F800000#32 :=
    broadcastInDim_apply _ bcast_S_S2x2048 _ (ix2 b k) ix0 (fun a => a.elim0)
  have e2 : broadcastInDim S2x2048 ![] bcast_S_S2x2048 (constant (F := Ideal) S_ .f32 0x49742400#32) (ix2 b k) = Ideal.ofBits .f32 0x49742400#32 :=
    broadcastInDim_apply _ bcast_S_S2x2048 _ (ix2 b k) ix0 (fun a => a.elim0)
  rw [e2]
  show (-(broadcastInDim S2x2048 ![] bcast_S_S2x2048 (constant (F := Ideal) S_ .f32 0x3F800000#32) (ix2 b k) - _)) * _ = _
  rw [e1]

/-! ## The windows' index maps, decided over the 64 grid points -/

/-- Queries and output move together; keys and values follow batch and head only; the bias block never moves; the bias
    row the body loads is the batch's. -/
theorem idx_facts : ∀ t : Fin cfg0.N,
    win0_0.index t (0 : Fin 4) = win0_4.index t (0 : Fin 4) ∧ win0_0.index t (1 : Fin 4) = win0_4.index t (1 : Fin 4)
    ∧ win0_0.index t (2 : Fin 4) = win0_4.index t (2 : Fin 4) ∧ win0_0.index t (3 : Fin 4) = 0
    ∧ win0_1.index t (0 : Fin 4) = win0_4.index t (0 : Fin 4) ∧ win0_1.index t (1 : Fin 4) = win0_4.index t (1 : Fin 4)
    ∧ win0_1.index t (2 : Fin 4) = 0 ∧ win0_1.index t (3 : Fin 4) = 0
    ∧ win0_2.index t (0 : Fin 4) = win0_4.index t (0 : Fin 4) ∧ win0_2.index t (1 : Fin 4) = win0_4.index t (1 : Fin 4)
    ∧ win0_2.index t (2 : Fin 4) = 0 ∧ win0_2.index t (3 : Fin 4) = 0
    ∧ win0_3.index t (0 : Fin 2) = 0 ∧ win0_3.index t (1 : Fin 2) = 0
    ∧ k0_off1 (grid0.coords t) (0 : Fin 2) = win0_4.index t (0 : Fin 4) ∧ k0_off1 (grid0.coords t) (1 : Fin 2) = 0
    ∧ win0_4.index t (3 : Fin 4) = 0 :=
  (by decide +kernel : ∀ t : Fin grid0.N, _)

theorem b_lt : ∀ t : Fin cfg0.N, win0_4.index t (0 : Fin 4) < 2 := (by decide +kernel : ∀ t : Fin grid0.N, _)
theorem h_lt : ∀ t : Fin cfg0.N, win0_4.index t (1 : Fin 4) < 16 := (by decide +kernel : ∀ t : Fin grid0.N, _)
theorem q_lt : ∀ t : Fin cfg0.N, win0_4.index t (2 : Fin 4) < 2 := (by decide +kernel : ∀ t : Fin grid0.N, _)

/-- The batch, the head and the query row of point `t`'s block. -/
def pb (t : Fin cfg0.N) : Fin 2 := ⟨win0_4.index t (0 : Fin 4), b_lt t⟩
def ph (t : Fin cfg0.N) : Fin 16 := ⟨win0_4.index t (1 : Fin 4), h_lt t⟩
def pq (t : Fin cfg0.N) (q : Fin 1024) : Fin 2048 :=
  ⟨win0_4.index t (2 : Fin 4) * 1024 + q.val, by have := q_lt t; have := q.isLt; omega⟩

/-! ## The input blocks read where the output's block says -/

/-- The query block at `(q, e)` is the queries at `(b, h, tile * 1024 + q, e)`. -/
theorem readQ (c : Dev nD) (t : Fin cfg0.N) (q : Fin 1024) (e : Fin 64) :
    iblk m c 0 t (ix4 (0 : Fin 1) (0 : Fin 1) q e) = m ((c : Thread nD τ).loc main_arg0) (ix4 (pb t) (ph t) (pq t q) e) := by
  unfold iblk
  rw [View.read_apply]
  show V m c main_arg0 _ = _
  rw [V_main_arg0]
  obtain ⟨e0, e1, e2, e3, -⟩ := idx_facts t
  refine congrArg _ (funext fun a => Fin.ext ?_)
  match a with
  | ⟨0, _⟩ => show win0_0.index t (0 : Fin 4) * 1 + 1 * 0 = win0_4.index t (0 : Fin 4); omega
  | ⟨1, _⟩ => show win0_0.index t (1 : Fin 4) * 1 + 1 * 0 = win0_4.index t (1 : Fin 4); omega
  | ⟨2, _⟩ => show win0_0.index t (2 : Fin 4) * 1024 + 1 * q.val = win0_4.index t (2 : Fin 4) * 1024 + q.val; omega
  | ⟨3, _⟩ => show win0_0.index t (3 : Fin 4) * 64 + 1 * e.val = e.val; omega

/-- The key block at `(k, e)` is the keys at `(b, h, k, e)`. -/
theorem readK (c : Dev nD) (t : Fin cfg0.N) (k : Fin 2048) (e : Fin 64) :
    iblk m c 1 t (ix4 (0 : Fin 1) (0 : Fin 1) k e) = m ((c : Thread nD τ).loc main_arg1) (ix4 (pb t) (ph t) k e) := by
  unfold iblk
  rw [View.read_apply]
  show V m c main_arg1 _ = _
  rw [V_main_arg1]
  obtain ⟨-, -, -, -, e0, e1, e2, e3, -⟩ := idx_facts t
  refine congrArg _ (funext fun a => Fin.ext ?_)
  match a with
  | ⟨0, _⟩ => show win0_1.index t (0 : Fin 4) * 1 + 1 * 0 = win0_4.index t (0 : Fin 4); omega
  | ⟨1, _⟩ => show win0_1.index t (1 : Fin 4) * 1 + 1 * 0 = win0_4.index t (1 : Fin 4); omega
  | ⟨2, _⟩ => show win0_1.index t (2 : Fin 4) * 2048 + 1 * k.val = k.val; omega
  | ⟨3, _⟩ => show win0_1.index t (3 : Fin 4) * 64 + 1 * e.val = e.val; omega

/-- The value block at `(k, d)` is the values at `(b, h, k, d)`. -/
theorem readV (c : Dev nD) (t : Fin cfg0.N) (k : Fin 2048) (d : Fin 64) :
    iblk m c 2 t (ix4 (0 : Fin 1) (0 : Fin 1) k d) = m ((c : Thread nD τ).loc main_arg2) (ix4 (pb t) (ph t) k d) := by
  unfold iblk
  rw [View.read_apply]
  show V m c main_arg2 _ = _
  rw [V_main_arg2]
  obtain ⟨-, -, -, -, -, -, -, -, e0, e1, e2, e3, -⟩ := idx_facts t
  refine congrArg _ (funext fun a => Fin.ext ?_)
  match a with
  | ⟨0, _⟩ => show win0_2.index t (0 : Fin 4) * 1 + 1 * 0 = win0_4.index t (0 : Fin 4); omega
  | ⟨1, _⟩ => show win0_2.index t (1 : Fin 4) * 1 + 1 * 0 = win0_4.index t (1 : Fin 4); omega
  | ⟨2, _⟩ => show win0_2.index t (2 : Fin 4) * 2048 + 1 * k.val = k.val; omega
  | ⟨3, _⟩ => show win0_2.index t (3 : Fin 4) * 64 + 1 * d.val = d.val; omega

/-- The bias row the body loads, of a bias block read off an array `X`, is row `b` of `X`. -/
theorem readBias_of (X : S2x2048.Idx → EReal) (t : Fin cfg0.N) (k : Fin 2048) :
    Body.biasRow (grid0.coords t) (((cfg0.win 3).blk t).view.read (Elt Ideal) X) (ix2 (0 : Fin 1) k) = X (ix2 (pb t) k) := by
  unfold Body.biasRow
  obtain ⟨-, -, -, -, -, -, -, -, -, -, -, -, e0, e1, o0, o1, -⟩ := idx_facts t
  show X (((cfg0.win 3).blk t).view.emb ((Rect.unit (s := S2x2048) (k0_off1 (grid0.coords t)) S1x2048.size (k0_off1_inb (grid0.coords t))).idx (ix2 (0 : Fin 1) k))) = _
  refine congrArg X (funext fun a => Fin.ext ?_)
  match a with
  | ⟨0, _⟩ =>
    show win0_3.index t (0 : Fin 2) * 2 + 1 * (k0_off1 (grid0.coords t) (0 : Fin 2) + 1 * 0) = win0_4.index t (0 : Fin 4)
    omega
  | ⟨1, _⟩ =>
    show win0_3.index t (1 : Fin 2) * 2048 + 1 * (k0_off1 (grid0.coords t) (1 : Fin 2) + 1 * k.val) = k.val
    omega

/-- So the bias row at `k` is the bias of mask entry `(b, k)`. -/
theorem readBias (c : Dev nD) (t : Fin cfg0.N) (k : Fin 2048) :
    Body.biasRow (grid0.coords t) (iblk m c 3 t) (ix2 (0 : Fin 1) k) = biasOf (m ((c : Thread nD τ).loc main_arg3) (ix2 (pb t) k)) :=
  (readBias_of _ t k).trans (bias_apply m c (pb t) k)

/-! ## What a point writes back -/

/-- WHAT POINT `t` WRITES BACK is block `t` of the specification of the four inputs. -/
theorem flushed_eq (c : Dev nD) (t : Fin cfg0.N) :
    (dats m 0 c).flushed 4 t = ((cfg0.win 4).blk t).view.read (Elt Ideal) (G (m ((c : Thread nD τ).loc main_arg0)) (m ((c : Thread nD τ).loc main_arg1)) (m ((c : Thread nD τ).loc main_arg2)) (m ((c : Thread nD τ).loc main_arg3))) := by
  rw [Value.flushed4_A, Body.out_eq]
  funext j
  obtain ⟨u, u', q, d, rfl⟩ : ∃ (u u' : Fin 1) (q : Fin 1024) (d : Fin 64), j = ix4 u u' q d :=
    ⟨j 0, j 1, j 2, j 3, eq_ix4 j⟩
  obtain rfl : u = 0 := Subsingleton.elim _ _
  obtain rfl : u' = 0 := Subsingleton.elim _ _
  have hemb : ((cfg0.win 4).blk t).view.emb (ix4 (0 : Fin 1) (0 : Fin 1) q d) = ix4 (pb t) (ph t) (pq t q) d := by
    obtain ⟨-, -, -, -, -, -, -, -, -, -, -, -, -, -, -, -, e3⟩ := idx_facts t
    funext a
    apply Fin.ext
    match a with
    | ⟨0, _⟩ => show win0_4.index t (0 : Fin 4) * 1 + 1 * 0 = win0_4.index t (0 : Fin 4); omega
    | ⟨1, _⟩ => show win0_4.index t (1 : Fin 4) * 1 + 1 * 0 = win0_4.index t (1 : Fin 4); omega
    | ⟨2, _⟩ => show win0_4.index t (2 : Fin 4) * 1024 + 1 * q.val = win0_4.index t (2 : Fin 4) * 1024 + q.val; omega
    | ⟨3, _⟩ => show win0_4.index t (3 : Fin 4) * 64 + 1 * d.val = d.val; omega
  show k0_pay1 (iblk m c 0 t) (iblk m c 1 t) (iblk m c 2 t) (Body.biasRow (grid0.coords t) (iblk m c 3 t)) (ix4 (0 : Fin 1) (0 : Fin 1) q d)
    = (G (m ((c : Thread nD τ).loc main_arg0)) (m ((c : Thread nD τ).loc main_arg1)) (m ((c : Thread nD τ).loc main_arg2)) (m ((c : Thread nD τ).loc main_arg3))) (((cfg0.win 4).blk t).view.emb (ix4 (0 : Fin 1) (0 : Fin 1) q d))
  rw [hemb, G_ix4]
  refine (Pay.pay_apply (iblk m c 0 t) (iblk m c 1 t) (iblk m c 2 t) (Body.biasRow (grid0.coords t) (iblk m c 3 t)) q d).trans ?_
  unfold attn attnBias
  simp only [readQ m c t, readK m c t, readV m c t, readBias m c t]

/-! ## The blocks cover the array -/

/-- An index of the array is in point `t`'s block iff each coordinate is in the block's range on its axis. -/
theorem mem_blk (t : Fin cfg0.N) (i : S2x16x2048x64.Idx) :
    i ∈ ((cfg0.win 4).blk t).view.set ↔ ∀ a : Fin 4, win0_4.index t a * S1x1x1024x64.size a ≤ (i a).val
      ∧ (i a).val < win0_4.index t a * S1x1x1024x64.size a + S1x1x1024x64.size a := by
  show i ∈ ((View.whole main_v5).slice (win0_4.rect t)).set ↔ _
  rw [View.set_slice_whole, Rect.mem_set_unit]
  exact Iff.rfl

/-- Every (batch, head, query tile) is some point's block index. -/
theorem idx_onto : ∀ (b : Fin 2) (h : Fin 16) (qi : Fin 2), ∃ t : Fin cfg0.N, win0_4.index t = ![b.val, h.val, qi.val, 0] :=
  (by decide +kernel : ∀ (b : Fin 2) (h : Fin 16) (qi : Fin 2), ∃ t : Fin grid0.N, win0_4.index t = ![b.val, h.val, qi.val, 0])

/-- Every index of the output lies in the block of the point (its batch, its head, its row / 1024). -/
theorem cover (i : S2x16x2048x64.Idx) : ∃ t : Fin cfg0.N, (cfg0.win 4).flush t = true ∧ i ∈ ((cfg0.win 4).blk t).view.set := by
  have hi0 : (i 0).val < 2 := (i 0).isLt
  have hi1 : (i 1).val < 16 := (i 1).isLt
  have hi2 : (i 2).val < 2048 := (i 2).isLt
  have hi3 : (i 3).val < 64 := (i 3).isLt
  obtain ⟨t, ht⟩ := idx_onto ⟨(i 0).val, hi0⟩ ⟨(i 1).val, hi1⟩ ⟨(i 2).val / 1024, by omega⟩
  have q0 : win0_4.index t (0 : Fin 4) = (i 0).val := congrFun ht 0
  have q1 : win0_4.index t (1 : Fin 4) = (i 1).val := congrFun ht 1
  have q2 : win0_4.index t (2 : Fin 4) = (i 2).val / 1024 := congrFun ht 2
  have q3 : win0_4.index t (3 : Fin 4) = 0 := congrFun ht 3
  refine ⟨t, flush0_4 t, ?_⟩
  rw [mem_blk]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 1 ≤ (i 1).val ∧ (i 1).val < win0_4.index t (1 : Fin 4) * 1 + 1; omega
  | ⟨2, _⟩ => show win0_4.index t (2 : Fin 4) * 1024 ≤ (i 2).val ∧ (i 2).val < win0_4.index t (2 : Fin 4) * 1024 + 1024; omega
  | ⟨3, _⟩ => show win0_4.index t (3 : Fin 4) * 64 ≤ (i 3).val ∧ (i 3).val < win0_4.index t (3 : Fin 4) * 64 + 64; omega

/-! ## The array after the run -/

/-- THE ARRAY after the run: the specification of the four inputs. -/
theorem final (c : Dev nD) : (dats m 0 c).arrAt 4 cfg0.N = (G (m ((c : Thread nD τ).loc main_arg0)) (m ((c : Thread nD τ).loc main_arg1)) (m ((c : Thread nD τ).loc main_arg2)) (m ((c : Thread nD τ).loc main_arg3))) :=
  (dats m 0 c).arrAt_eq_of_cover 4 _ (fun t _ => flushed_eq m c t) cover

/-- The run, read: the output array at the specification of the inputs, the inputs unchanged. -/
theorem run : θ_run defs (onTc (τ := τ) (main (F := Ideal))) ⟨m, fun _ => 0, ρ⟩ fun r => ∀ c : Dev nD,
      r.2.mem ((c : Thread nD τ).loc main_v5) = (G (m ((c : Thread nD τ).loc main_arg0)) (m ((c : Thread nD τ).loc main_arg1)) (m ((c : Thread nD τ).loc main_arg2)) (m ((c : Thread nD τ).loc main_arg3)))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.Whole

end
-- ==== Proof.Reference.lean ====
/-
  The reference program, entry by entry, and why it computes the specification.

  Read one operation at a time, entry (b, h, q, d) of the reference's result is: the scores of query (b, h, q) against the
  2048 keys, each the dot product divided by 8 minus 10^6 * (1 - mask); their maximum (a fold of max from -inf, then once
  more max with -inf); the weights exp (score - maximum); their sum started at 0; each weight divided by that sum; and the
  sum over the keys of normalised weight times value (b, h, k, d).  That is the row attended with the normalisation BEFORE
  the weighted sum.  On real inputs the scores are reals, so the row law turns it into the normalisation AFTER the sum,
  and the two arrangements of a score agree everywhere: the reference computes the specification.
-/
import proofs.«172134_j55611236549123_2_alg».proof.Proof.Gen.ReferenceIdeal.Read
import proofs.«172134_j55611236549123_2_alg».proof.Proof.Spec
import Idealize.ShloMosaic.Lib.ValueIdx
import Idealize.ShloMosaic.PureOps.Ideal.Laws

noncomputable section

open Idealize.ShloMosaic Idealize.ShloMosaic.ValueIdx

namespace Cert.ReferenceIdeal.Entry

open Cert.ReferenceIdeal Cert.ReferenceIdeal.Gen Cert.ReferenceIdeal.Read Cert.Attn Cert.SoftmaxRow

variable (x0 x1 x2 : (⟨S2x16x2048x64, .f32⟩ : BufTy).Contents (Elt Ideal)) (x3 : (⟨S2x2048, .f32⟩ : BufTy).Contents (Elt Ideal))

/-! ## Where each operation reads its operands -/

theorem lidx_qk (b : Fin 2) (h : Fin 16) (q k : Fin 2048) (e : Fin 64) : lidx_main_v0 (ix4 b h q k) e = ix4 b h q e :=
  funext fun a => Fin.ext (by match a with | ⟨0, _⟩ => rfl | ⟨1, _⟩ => rfl | ⟨2, _⟩ => rfl | ⟨3, _⟩ => rfl)
theorem ridx_qk (b : Fin 2) (h : Fin 16) (q k : Fin 2048) (e : Fin 64) : ridx_main_v0 (ix4 b h q k) e = ix4 b h k e :=
  funext fun a => Fin.ext (by match a with | ⟨0, _⟩ => rfl | ⟨1, _⟩ => rfl | ⟨2, _⟩ => rfl | ⟨3, _⟩ => rfl)
theorem idx_mask (b : Fin 2) (h : Fin 16) (q k : Fin 2048) : idx_main_v3 (idx_main_v8 (ix4 b h q k)) = ix2 b k :=
  funext fun a => Fin.ext (by match a with | ⟨0, _⟩ => rfl | ⟨1, _⟩ => rfl)
theorem idx_max (b : Fin 2) (h : Fin 16) (q k : Fin 2048) : idx_main_v13 (idx_main_v14 (ix4 b h q k)) = ix3 b h q :=
  funext fun a => Fin.ext (by match a with | ⟨0, _⟩ => rfl | ⟨1, _⟩ => rfl | ⟨2, _⟩ => rfl)
theorem idx_den (b : Fin 2) (h : Fin 16) (q k : Fin 2048) : idx_main_v18 (idx_main_v19 (ix4 b h q k)) = ix3 b h q :=
  funext fun a => Fin.ext (by match a with | ⟨0, _⟩ => rfl | ⟨1, _⟩ => rfl | ⟨2, _⟩ => rfl)
theorem idx_sum (b : Fin 2) (h : Fin 16) (q k : Fin 2048) : idx_main_v17 (ix3 b h q) k = ix4 b h q k :=
  funext fun a => Fin.ext (by match a with | ⟨0, _⟩ => rfl | ⟨1, _⟩ => rfl | ⟨2, _⟩ => rfl | ⟨3, _⟩ => rfl)
theorem lidx_pv (b : Fin 2) (h : Fin 16) (q : Fin 2048) (d : Fin 64) (k : Fin 2048) : lidx_main_v21 (ix4 b h q d) k = ix4 b h q k :=
  funext fun a => Fin.ext (by match a with | ⟨0, _⟩ => rfl | ⟨1, _⟩ => rfl | ⟨2, _⟩ => rfl | ⟨3, _⟩ => rfl)
theorem ridx_pv (b : Fin 2) (h : Fin 16) (q : Fin 2048) (d : Fin 64) (k : Fin 2048) : ridx_main_v21 (ix4 b h q d) k = ix4 b h k d :=
  funext fun a => Fin.ext (by match a with | ⟨0, _⟩ => rfl | ⟨1, _⟩ => rfl | ⟨2, _⟩ => rfl | ⟨3, _⟩ => rfl)

/-! ## The steps -/

/-- A score: the dot product of query `(b, h, q)` with key `(b, h, k)` divided by 8, minus `10^6 * (1 - mask (b, k))`. -/
theorem score_apply (b : Fin 2) (h : Fin 16) (q k : Fin 2048) :
    val_main_v9 (F := Ideal) x0 x1 x3 (ix4 b h q k)
      = scoreDiv (∑ e : Fin 64, x0 (ix4 b h q e) * x1 (ix4 b h k e)) (x3 (ix2 b k)) := by
  rw [val_main_v9_apply, val_main_v2_apply, val_main_v0_apply, val_main_v1_apply, val_main_cst_apply, val_main_v8_apply,
    val_main_v7_apply, val_main_v6_apply, val_main_cst_1_apply, val_main_v5_apply, val_main_v4_apply, val_main_cst_0_apply,
    val_main_v3_apply, idx_mask]
  simp only [lidx_qk, ridx_qk]
  rfl

/-- Over entry `(b, h, q)` of the reduced array, the source index with `k` on the reduced axis is `(b, h, q, k)`. -/
theorem lift_key (hr : S2x16x2048x2048.Reduces [3] S2x16x2048) (b : Fin 2) (h : Fin 16) (q k : Fin 2048) :
    hr.lift (ix3 b h q) k = ix4 b h q k :=
  funext fun a => Fin.ext (by match a with | ⟨0, _⟩ => rfl | ⟨1, _⟩ => rfl | ⟨2, _⟩ => rfl | ⟨3, _⟩ => rfl)

/-- The row maximum: the fold of max over the keys from -inf, then once more max with -inf. -/
theorem max_apply (b : Fin 2) (h : Fin 16) (q : Fin 2048) :
    val_main_v12 (F := Ideal) x0 x1 x3 (ix3 b h q)
      = max (Ideal.ofBits .f32 0xFF800000#32) (rowMax fun k : Fin 2048 => val_main_v9 (F := Ideal) x0 x1 x3 (ix4 b h q k)) := by
  rw [val_main_v12_apply, val_main_v11_apply, val_main_cst_3_apply]
  unfold val_main_v10
  generalize val_main_v9 (F := Ideal) x0 x1 x3 = y
  have hr : S2x16x2048x2048.Reduces [3] S2x16x2048 := by decide
  rw [Host.reduce_eq_fold_single (FloatOps.maximumf (F := Ideal) (φ := .f32)) y (val_main_cst_2 (F := Ideal))
    reducesTo_S2x16x2048x2048_S2x16x2048_d3 hr h_S_]
  have e : (y ∘ hr.lift (ix3 b h q)) = fun k : Fin 2048 => y (ix4 b h q k) := funext fun k => congrArg y (lift_key hr b h q k)
  rw [e]
  rfl

/-- A weight: `exp` of the score minus the row maximum. -/
theorem weight_apply (b : Fin 2) (h : Fin 16) (q k : Fin 2048) :
    val_main_v16 (F := Ideal) x0 x1 x3 (ix4 b h q k)
      = Ideal.exp (val_main_v9 (F := Ideal) x0 x1 x3 (ix4 b h q k) - val_main_v12 (F := Ideal) x0 x1 x3 (ix3 b h q)) := by
  rw [val_main_v16_apply, val_main_v15_apply, val_main_v14_apply, val_main_v13_apply, idx_max]
  rfl

/-- The row's sum of weights, started at 0. -/
theorem denom_apply (b : Fin 2) (h : Fin 16) (q : Fin 2048) :
    val_main_v17 (F := Ideal) x0 x1 x3 (ix3 b h q)
      = Ideal.ofBits .f32 0x00000000#32 + ∑ k : Fin 2048, val_main_v16 (F := Ideal) x0 x1 x3 (ix4 b h q k) := by
  rw [val_main_v17_apply]
  simp only [idx_sum]
  rfl

/-- The result: the sum over the keys of weight over the row's sum, times the value. -/
theorem out_apply (b : Fin 2) (h : Fin 16) (q : Fin 2048) (d : Fin 64) :
    val_main_v21 (F := Ideal) x0 x1 x2 x3 (ix4 b h q d)
      = ∑ k : Fin 2048, Ideal.div (val_main_v16 (F := Ideal) x0 x1 x3 (ix4 b h q k)) (val_main_v17 (F := Ideal) x0 x1 x3 (ix3 b h q))
          * x2 (ix4 b h k d) := by
  rw [val_main_v21_apply]
  refine Finset.sum_congr rfl fun k _ => ?_
  rw [lidx_pv, ridx_pv, val_main_v20_apply, val_main_v19_apply, val_main_v18_apply, idx_den]
  rfl

/-- So an entry of the reference's result is its row of scores attended over a column of the values, normalised BEFORE the
    weighted sum. -/
theorem entry_eq (b : Fin 2) (h : Fin 16) (q : Fin 2048) (d : Fin 64) :
    val_main_v21 (F := Ideal) x0 x1 x2 x3 (ix4 b h q d)
      = attendBefore (fun k : Fin 2048 => scoreDiv (∑ e : Fin 64, x0 (ix4 b h q e) * x1 (ix4 b h k e)) (x3 (ix2 b k)))
          (fun k : Fin 2048 => x2 (ix4 b h k d)) := by
  rw [out_apply]
  unfold attendBefore
  simp only [denom_apply, weight_apply, max_apply, score_apply]

/-! ## On real inputs the reference computes the specification -/

theorem result_eq_spec (h0 : ∀ i, ∃ r : ℝ, x0 i = (r : EReal)) (h1 : ∀ i, ∃ r : ℝ, x1 i = (r : EReal))
    (h2 : ∀ i, ∃ r : ℝ, x2 i = (r : EReal)) (h3 : ∀ i, ∃ r : ℝ, x3 i = (r : EReal)) :
    val_main_v21 (F := Ideal) x0 x1 x2 x3 = G x0 x1 x2 x3 := by
  funext i
  obtain ⟨b, h, q, d, rfl⟩ : ∃ (b : Fin 2) (h : Fin 16) (q : Fin 2048) (d : Fin 64), i = ix4 b h q d :=
    ⟨i 0, i 1, i 2, i 3, eq_ix4 i⟩
  rw [entry_eq, G_ix4]
  unfold attn attnBias
  choose r0 e0 using h0
  choose r1 e1 using h1
  choose r2 e2 using h2
  choose r3 e3 using h3
  simp only [scoreDiv_eq]
  have hs : ∀ k : Fin 2048, ∃ s : ℝ,
      scoreOf (∑ e : Fin 64, x0 (ix4 b h q e) * x1 (ix4 b h k e)) (biasOf (x3 (ix2 b k))) = (s : EReal) := fun k => by
    simp only [e0, e1, e3, ← EReal.coe_mul, ← coe_sum]
    exact scoreOf_biasOf_coe _ _
  choose s es using hs
  simp only [es, e2]
  exact attendBefore_eq_after (by decide) s (fun k => r2 (ix4 b h k d))

end Cert.ReferenceIdeal.Entry

end
-- ==== Proof.Finite.lean ====
/-
  What the precondition gives: every entry of every input is a real number.

  The precondition is the conjunction, over the four inputs, of "every entry's absolute value is below +inf".  An
  extended real whose absolute value max x (-x) is below +inf is neither +inf nor -inf (at either of them the absolute
  value is +inf), so it is a real.
-/
import proofs.«172134_j55611236549123_2_alg».proof.Pre_finite_inputs
import proofs.«172134_j55611236549123_2_alg».proof.Proof.Gen.Pre_finite_inputs
import proofs.«172134_j55611236549123_2_alg».proof.Proof.LibSoftmaxRow
import Idealize.ShloMosaic.Lib.ReduceAll
import Idealize.ShloMosaic.Lib.Affine
import Idealize.ShloMosaic.Lib.ValueIdx
import Idealize.ShloMosaic.Lib.Pipeline.Value
import Idealize.ShloMosaic.PureOps.Ideal.Laws

noncomputable section

open Idealize.ShloMosaic

namespace Cert.Pre_finite_inputs.Finite

open Cert.Pre_finite_inputs Cert.Pre_finite_inputs.Gen

/-- The shape with no axes has one index. -/
instance : Subsingleton S_.Idx := ⟨fun a b => funext fun d => d.elim0⟩

/-- An extended real whose absolute value is below +inf is a real. -/
theorem real_of_abs_lt_top (x : EReal) (h : max x (-x) < ⊤) : ∃ r : ℝ, x = (r : EReal) := by
  induction x using EReal.rec with
  | bot => exact absurd h (by simp)
  | top => exact absurd h (by simp)
  | coe r => exact ⟨r, rfl⟩

/-- One entry's test: the comparison of its absolute value with the word of +inf came out true, so it is a real. -/
theorem real_of_test {s : Shape} (a : FVec Ideal s .f32) (hb : S_.BroadcastsInDim s (![] : Fin 0 → Fin s.rank)) (i : s.Idx)
    (h : cmpf .olt (Host.absf a) (broadcastInDim s ![] hb (constant (F := Ideal) S_ .f32 0x7F800000#32)) i = 1#1) :
    ∃ r : ℝ, a i = (r : EReal) := by
  have e : broadcastInDim s ![] hb (constant (F := Ideal) S_ .f32 0x7F800000#32) i = Ideal.ofBits .f32 0x7F800000#32 :=
    broadcastInDim_apply _ hb _ i ValueIdx.ix0 (fun a => a.elim0)
  have h' : Ideal.cmp .olt (max (a i) (-(a i))) (broadcastInDim s ![] hb (constant (F := Ideal) S_ .f32 0x7F800000#32) i) = 1#1 := h
  rw [e, Cert.SoftmaxRow.ofBits_pos_inf] at h'
  refine real_of_abs_lt_top (a i) ?_
  unfold Ideal.cmp at h'
  by_contra hn
  simp [hn] at h'

/-- Under the precondition all four inputs hold reals. -/
theorem finite_of_pre (a0 a1 a2 : FVec Ideal S2x16x2048x64 .f32) (a3 : FVec Ideal S2x2048 .f32)
    (h : fn (F := Ideal) a0 a1 a2 a3 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) := by
  have h0 := congrFun h ValueIdx.ix0
  dsimp only [fn, fn_part1] at h0
  obtain ⟨h012, h3⟩ := IntOp.andi_eq_one.mp h0
  obtain ⟨h01, h2⟩ := IntOp.andi_eq_one.mp h012
  obtain ⟨h0', h1⟩ := IntOp.andi_eq_one.mp h01
  exact ⟨fun i => real_of_test a0 _ i (Host.reduce_andi_all _ _ _ _ _ h0' i),
    fun i => real_of_test a1 _ i (Host.reduce_andi_all _ _ _ _ _ h1 i),
    fun i => real_of_test a2 _ i (Host.reduce_andi_all _ _ _ _ _ h2 i),
    fun i => real_of_test a3 _ i (Host.reduce_andi_all _ _ _ _ _ h3 i)⟩

end Cert.Pre_finite_inputs.Finite

end
-- ==== Proof.lean ====
/-
  Attention with an additive key mask: a tiled kernel against the plain formula.

  Both programs compute, for each batch, head, query position q and feature d,

      out (q, d) = ∑ k, softmax_k (s (q, k)) * V (k, d),     s (q, k) = (∑ e, Q (q, e) * K (k, e)) / 8 - 10^6 * (1 - mask k).

  The kernel runs one grid point per (batch, head, tile of 1024 queries): it scores the tile against all 2048 keys with the
  scaling written as a product with 1/8 and the bias (-(1 - mask)) * 10^6 computed before the launch, takes each row's
  maximum M, the weights w k = exp (s k - M) and their sum l, multiplies the weights into the values and only then
  normalises, (∑ k, w k * V (k, d)) * (1 / l).  The reference normalises first, ∑ k, (w k / l) * V (k, d).  Over the
  extended reals the two scores agree everywhere; the two normalisations agree because under the precondition every input
  is a real number, so the scores are reals, M is a real (there is at least one key), every weight is a positive real, l is
  a positive real, and the identity is distributivity over a finite sum of reals.  The changes of float format inside the
  kernel are the identity over the extended reals, and a different tiling or order of a sum does not change it.

  The three frames: the two kernels' are the generated frame certificates; the reference has no kernel, and its frame is
  its run with the result dropped.  The idealization rewrote no operation, so that conjunct is `True`.
-/
import proofs.«172134_j55611236549123_2_alg».proof.Defs
import proofs.«172134_j55611236549123_2_alg».proof.Proof.Gen.Kernel
import proofs.«172134_j55611236549123_2_alg».proof.Proof.Gen.Kernel.Skeleton
import proofs.«172134_j55611236549123_2_alg».proof.Proof.Gen.Kernel.Launch
import proofs.«172134_j55611236549123_2_alg».proof.Proof.Gen.Kernel.Points
import proofs.«172134_j55611236549123_2_alg».proof.Proof.Gen.Kernel.Frame
import proofs.«172134_j55611236549123_2_alg».proof.Proof.Gen.KernelIdeal
import proofs.«172134_j55611236549123_2_alg».proof.Proof.Gen.KernelIdeal.Skeleton
import proofs.«172134_j55611236549123_2_alg».proof.Proof.Gen.KernelIdeal.Launch
import proofs.«172134_j55611236549123_2_alg».proof.Proof.Gen.KernelIdeal.Points
import proofs.«172134_j55611236549123_2_alg».proof.Proof.Gen.KernelIdeal.Frame
import proofs.«172134_j55611236549123_2_alg».proof.Proof.Gen.ReferenceIdeal
import proofs.«172134_j55611236549123_2_alg».proof.Proof.Gen.Pre_finite_inputs
import proofs.«172134_j55611236549123_2_alg».proof.Proof.Gen.KernelIdeal.Value
import proofs.«172134_j55611236549123_2_alg».proof.Proof.Gen.ReferenceIdeal.Run
import proofs.«172134_j55611236549123_2_alg».proof.Proof.Gen.ReferenceIdeal.Read
import Idealize.ShloMosaic.Adequacy
import Idealize.ShloMosaic.Init
import proofs.«172134_j55611236549123_2_alg».proof.Proof.Whole
import proofs.«172134_j55611236549123_2_alg».proof.Proof.Reference
import proofs.«172134_j55611236549123_2_alg».proof.Proof.Finite

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's output array ends at the specification of its inputs; the reference's result is its composed term of inputs
    that agree with the kernel's, which on real inputs is the same specification. -/
theorem algebraic : Cert.algebraic_KernelIdeal_ReferenceIdeal := by
  intro m ρ m' ρ' hpre hagree
  refine ⟨fun c => Cert.Attn.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), Cert.KernelIdeal.Whole.run m ρ, ?_⟩
  refine (θ_run Cert.ReferenceIdeal.defs _ _).mono (fun _ h c => ⟨?_, (h c).2⟩)
    (Cert.ReferenceIdeal.Value.run (F := Ideal) m' ρ')
  obtain ⟨f0, f1, f2, f3⟩ := Cert.Pre_finite_inputs.Finite.finite_of_pre _ _ _ _ (hpre c)
  rw [(h c).1, Cert.ReferenceIdeal.Read.val_main_v21_eq, (hagree c).1, (hagree c).2.1, (hagree c).2.2.1, (hagree c).2.2.2]
  exact Cert.ReferenceIdeal.Entry.result_eq_spec _ _ _ _ f0 f1 f2 f3

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
